-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x2048 : Shape := ⟨2, ![2048, 2048]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x64 .f32) (main_arg1 : FVec F S2048x2048 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x64 : Shape := ⟨2, ![2048, 64]⟩
abbrev S2048x2048 : Shape := ⟨2, ![2048, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x2048, .f32⟩
  | .local _ .vmem, ⟨3, _⟩ => ⟨S512x2048, .f32⟩
  | .local _ .vmem, ⟨4, _⟩ => ⟨S512x64, .f32⟩
  | .local _ .vmem, ⟨5, _⟩ => ⟨S512x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S512x64_S512x64_0_0 : ∀ a, (![0, 0] : Fin 2 → Nat) a + S512x64.size a ≤ S512x64.size a
  h_S512x64 : 0 < S512x64.numel
  broadcasts_S512x1_S512x64 : S512x1.Broadcasts S512x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S2048x64.size a
  hwx0_2 : ∀ i : grid0.Coords, EltTy.bits .f32 = 32 ∨ (Rect.block (s := S2048x64) S512x64.size (cc0_transform_2 i) (hinb0_2 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x2048 : Shape := ⟨2, ![2048, 2048]⟩
abbrev S2048x1x64 : Shape := ⟨3, ![2048, 1, 64]⟩
abbrev S2048x2048x1 : Shape := ⟨3, ![2048, 2048, 1]⟩
abbrev S2048x2048x64 : Shape := ⟨3, ![2048, 2048, 64]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S2048x1x64, .f32⟩
  | .hbm, ⟨3, _⟩ => ⟨S2048x2048x1, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x2048_S2048x2048x1_0_1 : S2048x2048.BroadcastsInDim S2048x2048x1 (![0, 1] : Fin 2 → Fin S2048x2048x1.rank)
  bcast_S2048x1x64_S2048x2048x64_0_1_2 : S2048x1x64.BroadcastsInDim S2048x2048x64 (![0, 1, 2] : Fin 3 → Fin S2048x2048x64.rank)
  bcast_S2048x2048x1_S2048x2048x64_0_1_2 : S2048x2048x1.BroadcastsInDim S2048x2048x64 (![0, 1, 2] : Fin 3 → Fin S2048x2048x64.rank)
  reducesTo_S2048x2048x64_S2048x64_d1 : S2048x2048x64.ReducesTo [1] S2048x64
  h_S_ : 0 < S_.numel

variable [Facts₀]

class Facts : Prop extends Facts₀ where

variable [Facts]
-- ==== Proof.PoolLaw.lean ====
/-
  The one order law of this certificate, on the extended reals, free of any program.

  Fix a scalar `x` and a nonempty finite family `a k`. Multiplication by `x ≥ 0` preserves the order of the extended
  reals, so the largest of the products `x · a k` is `x` times the largest `a k`; multiplication by `x ≤ 0` reverses
  the order, so the largest product is `x` times the SMALLEST `a k`. Both statements hold on all of the extended reals
  — infinite entries included, with the convention `0 · ±∞ = 0` — so nothing here asks for finiteness. A maximum is
  taken as a fold of `max` from `⊥` and a minimum as a fold of `min` from `⊤`; over a NONEMPTY index set each is
  attained up to order (`exists_foldMax_le`, `exists_le_foldMin`), which is what lets a factor `x` pass through even when
  `x · ⊥` or `x · ⊤` is not the neutral element any more (`0 · ⊥ = 0`).
-/
import Mathlib.Data.EReal.Inv
import Mathlib.Data.Finset.Fold

namespace Cert.Pool

variable {ι : Type*}

/-- Every member is below the fold of `max`, whatever it starts from. -/
theorem le_foldMax (f : ι → EReal) {s : Finset ι} {k : ι} (hk : k ∈ s) (b : EReal) : f k ≤ s.fold max b f :=
  (Finset.le_fold_max _).2 (Or.inr ⟨k, hk, le_rfl⟩)

/-- The fold of `min` is below every member, whatever it starts from. -/
theorem foldMin_le (f : ι → EReal) {s : Finset ι} {k : ι} (hk : k ∈ s) (b : EReal) : s.fold min b f ≤ f k :=
  (Finset.fold_min_le _).2 (Or.inr ⟨k, hk, le_rfl⟩)

/-- Over a nonempty set the maximum from `⊥` is reached: some member is at least the fold. (Were every member strictly
    below it, the fold itself would be strictly below itself.) -/
theorem exists_foldMax_le (f : ι → EReal) {s : Finset ι} (hs : s.Nonempty) : ∃ k ∈ s, s.fold max ⊥ f ≤ f k := by
  by_contra hcon
  have hlt : ∀ k ∈ s, f k < s.fold max ⊥ f := fun k hk => lt_of_not_ge fun hle => hcon ⟨k, hk, hle⟩
  obtain ⟨k0, hk0⟩ := hs
  exact lt_irrefl _ ((Finset.fold_max_lt _).2 ⟨bot_le.trans_lt (hlt k0 hk0), hlt⟩)

/-- Over a nonempty set the minimum from `⊤` is reached: some member is at most the fold. -/
theorem exists_le_foldMin (f : ι → EReal) {s : Finset ι} (hs : s.Nonempty) : ∃ k ∈ s, f k ≤ s.fold min ⊤ f := by
  by_contra hcon
  have hlt : ∀ k ∈ s, s.fold min ⊤ f < f k := fun k hk => lt_of_not_ge fun hle => hcon ⟨k, hk, hle⟩
  obtain ⟨k0, hk0⟩ := hs
  exact lt_irrefl _ ((Finset.lt_fold_min _).2 ⟨(hlt k0 hk0).trans_le le_top, hlt⟩)

/-- A nonnegative factor passes through a maximum: `x · max_k a k = max_k (x · a k)`. -/
theorem mul_foldMax_of_nonneg {x : EReal} (hx : 0 ≤ x) (a : ι → EReal) {s : Finset ι} (hs : s.Nonempty) :
    x * s.fold max ⊥ a = s.fold max ⊥ (fun k => x * a k) := by
  apply le_antisymm
  · obtain ⟨k, hk, hle⟩ := exists_foldMax_le a hs
    exact (mul_le_mul_of_nonneg_left hle hx).trans (le_foldMax (fun k => x * a k) hk ⊥)
  · exact (Finset.fold_max_le _).2 ⟨bot_le, fun k hk => mul_le_mul_of_nonneg_left (le_foldMax a hk ⊥) hx⟩

/-- A nonpositive factor turns a minimum into a maximum: `x · min_k a k = max_k (x · a k)`. -/
theorem mul_foldMin_of_nonpos {x : EReal} (hx : x ≤ 0) (a : ι → EReal) {s : Finset ι} (hs : s.Nonempty) :
    x * s.fold min ⊤ a = s.fold max ⊥ (fun k => x * a k) := by
  apply le_antisymm
  · obtain ⟨k, hk, hle⟩ := exists_le_foldMin a hs
    have hmul : x * s.fold min ⊤ a ≤ x * a k := by
      rw [mul_comm x (s.fold min ⊤ a), mul_comm x (a k)]
      exact EReal.mul_le_mul_of_nonpos_right hle hx
    exact hmul.trans (le_foldMax (fun k => x * a k) hk ⊥)
  · refine (Finset.fold_max_le _).2 ⟨bot_le, fun k hk => ?_⟩
    rw [mul_comm x (a k), mul_comm x (s.fold min ⊤ a)]
    exact EReal.mul_le_mul_of_nonpos_right (foldMin_le a hk ⊤) hx

/-- THE LAW. Choosing, by the sign of `x`, between `x` times the largest and `x` times the smallest member gives the largest
    of the products `x · a k`. -/
theorem pool_law (x : EReal) (a : ι → EReal) {s : Finset ι} (hs : s.Nonempty) :
    (if 0 ≤ x then x * s.fold max ⊥ a else x * s.fold min ⊤ a) = s.fold max ⊥ (fun k => x * a k) := by
  by_cases h : 0 ≤ x
  · rw [if_pos h]; exact mul_foldMax_of_nonneg h a hs
  · rw [if_neg h]; exact mul_foldMin_of_nonpos (not_le.1 h).le a hs

end Cert.Pool
-- ==== Proof.Pooled.lean ====
/-
  WHAT BOTH PROGRAMS COMPUTE, as one function of the two argument arrays, and the entry-level step from the kernel's formula to it.

  `x` is the feature array [2048, 64] and `adj` the adjacency array [2048, 2048]. The pooled array is
      pooled[r, f] = max over the 2048 columns k of  x[r, f] · adj[r, k],
  the maximum folded from `-∞` (`⊥`): `pooledAt`, by coordinates, and `pooled`, by index.

  The kernel never forms the products. For a row `r` it takes the largest and the smallest entry of `adj[r, ·]` (folds from
  `-∞` and `+∞`) and stores `x · largest` where `x ≥ 0` and `x · smallest` elsewhere. `kernel_entry` says that this entry
  is the maximum of the products: the comparison's bit selects by `0 ≤ x` (`select_oge_zero`), the two start words are `⊥` and
  `⊤`, and the rest is the order law of PoolLaw.lean — a nonnegative factor passes through a maximum, a nonpositive one
  turns a minimum into a maximum. The 2048 columns are a nonempty set, which the law needs when `x = 0`.
-/
import Idealize.ShloMosaic.PureOps.Ideal.Laws
import Idealize.ShloMosaic.Lib.ValueIdx
import proofs.«124950_j47047071760693_2_alg».proof.Proof.PoolLaw

noncomputable section

namespace Cert.Pool

open Idealize.ShloMosaic Idealize.ShloMosaic.ValueIdx

/-- `pooled[r, f]`: the largest of `x[r, f] · adj[r, k]` over the columns `k`, from `-∞`. -/
def pooledAt (x : (⟨2, ![2048, 64]⟩ : Shape).Idx → EReal) (adj : (⟨2, ![2048, 2048]⟩ : Shape).Idx → EReal)
    (r : Fin 2048) (f : Fin 64) : EReal :=
  (Finset.univ : Finset (Fin 2048)).fold max ⊥ (fun k => x (ix2 r f) * adj (ix2 r k))

/-- The pooled array, index by index. -/
def pooled (x : (⟨2, ![2048, 64]⟩ : Shape).Idx → EReal) (adj : (⟨2, ![2048, 2048]⟩ : Shape).Idx → EReal) :
    (⟨2, ![2048, 64]⟩ : Shape).Idx → EReal :=
  fun i => pooledAt x adj (i 0) (i 1)

theorem pooled_ix2 (x : (⟨2, ![2048, 64]⟩ : Shape).Idx → EReal) (adj : (⟨2, ![2048, 2048]⟩ : Shape).Idx → EReal)
    (r : Fin 2048) (f : Fin 64) : pooled x adj (ix2 r f) = pooledAt x adj r f := rfl

/-- The word `0xFF800000` is `-∞`. -/
theorem ofBits_negInf : Ideal.ofBits .f32 0xFF800000#32 = ⊥ := by simp [Ideal.ofBits, Ideal.ieee]

/-- The word `0x7F800000` is `+∞`. -/
theorem ofBits_posInf : Ideal.ofBits .f32 0x7F800000#32 = ⊤ := by simp [Ideal.ofBits, Ideal.ieee]

/-- `select (x ≥ 0.0) p q` on extended reals is `p` where `0 ≤ x` and `q` elsewhere. -/
theorem select_oge_zero (x p q : EReal) :
    Scalar.select (Ideal.cmp .oge x (Ideal.ofBits .f32 0x00000000#32)) p q = if 0 ≤ x then p else q := by
  rw [Ideal.ofBits_zero_f32]
  show Scalar.select (BitVec.ofBool (decide ((0 : EReal) ≤ x))) p q = _
  by_cases h : (0 : EReal) ≤ x
  · rw [if_pos h, decide_eq_true h]; exact select_one p q
  · rw [if_neg h, decide_eq_false h]; exact select_zero p q

/-- THE KERNEL'S ENTRY IS THE MAXIMUM OF THE PRODUCTS: for a scalar `x` and a row `a` of 2048 entries,
    `select (x ≥ 0) (x · max_k a k) (x · min_k a k) = max_k (x · a k)`, the folds starting from the printed words. -/
theorem kernel_entry (x : EReal) (a : Fin 2048 → EReal) :
    Scalar.select (Ideal.cmp .oge x (Ideal.ofBits .f32 0x00000000#32))
        (x * (Finset.univ : Finset (Fin 2048)).fold max (Ideal.ofBits .f32 0xFF800000#32) a)
        (x * (Finset.univ : Finset (Fin 2048)).fold min (Ideal.ofBits .f32 0x7F800000#32) a)
      = (Finset.univ : Finset (Fin 2048)).fold max ⊥ (fun k => x * a k) := by
  rw [select_oge_zero, ofBits_negInf, ofBits_posInf]
  exact pool_law x a ⟨⟨0, by decide⟩, Finset.mem_univ _⟩

end Cert.Pool

end
-- ==== Proof.KernelBlock.lean ====
/-
  ONE BLOCK OF THE KERNEL, entry by entry.

  At a grid point the body holds a block `X` of 512 feature rows ([512, 64]) and the block `A` of the same 512 adjacency rows
  ([512, 2048]). It takes every row's largest and smallest adjacency entry (two lane reductions, from `-∞` and `+∞`), re-lays
  each as a column, and stores `select (X ≥ 0) (X · rowmax) (X · rowmin)`. The generated value leg already reads the re-laid
  columns at an index (`Value.E2`); what is added here is the two lane reductions as folds over the 2048 columns of the row
  (`rowMax_apply`, `rowMin_apply`) and then the entry-level law (`Cert.Pool.kernel_entry`): the block's entry (p, q) is the
  largest of `X[p, q] · A[p, k]` over the columns `k`.
-/
import proofs.«124950_j47047071760693_2_alg».proof.Proof.Gen.KernelIdeal.Value
import proofs.«124950_j47047071760693_2_alg».proof.Proof.Pooled
import Idealize.ShloMosaic.PureOps.Ideal.Laws
import Idealize.ShloMosaic.Lib.ValueIdx

noncomputable section

namespace Cert.KernelIdeal.Block

open Cert.KernelIdeal Cert.KernelIdeal.Gen
open Idealize.ShloMosaic Idealize.ShloMosaic.ValueIdx Cert.Pool

/-- Row `p` of a [512, 2048] block with the column `k` inserted is the entry (p, k). -/
theorem lift_row (h : S512x2048.Reduces [1] S512) (p : Fin 512) (k : Fin 2048) : h.lift (ix1 p) k = ix2 p k := by
  funext c
  apply Fin.ext
  match c with
  | ⟨0, _⟩ => rfl
  | ⟨1, _⟩ => rfl

/-- The lane maximum of row `p`: the fold of `max` over the row's 2048 entries, from the value of the start word. -/
theorem rowMax_apply (A : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 A 0xFF800000#32 h hφ hacc (ix1 p)
      = (Finset.univ : Finset (Fin 2048)).fold max (Ideal.ofBits .f32 0xFF800000#32) (fun k => A (ix2 p k)) := by
  refine (Ideal.multiReduction_maximumf_single A 0xFF800000#32 h hφ hacc (ix1 p)).trans ?_
  exact Finset.fold_congr (fun k _ => congrArg A (lift_row h p k))

/-- The lane minimum of row `p`: the fold of `min` over the row's 2048 entries, from the value of the start word. -/
theorem rowMin_apply (A : FVec Ideal S512x2048 .f32) (h : S512x2048.Reduces [1] S512) (hφ : FKind.Formats .f32)
    (hacc : (0x7F800000#32 : BitVec 32) = FKind.minimumf.neutral .f32 hφ) (p : Fin 512) :
    multiReduction .minimumf [1] S512 A 0x7F800000#32 h hφ hacc (ix1 p)
      = (Finset.univ : Finset (Fin 2048)).fold min (Ideal.ofBits .f32 0x7F800000#32) (fun k => A (ix2 p k)) := by
  refine (multiReduction_minimumf_eq_fold A 0x7F800000#32 h hφ hacc (ix1 p)).trans ?_
  refine (h.fold_filter_drop_single (FloatOps.minimumf (F := Ideal) (φ := .f32)) _ A (ix1 p)).trans ?_
  exact Finset.fold_congr (fun k _ => congrArg A (lift_row h p k))

/-- THE BLOCK'S ENTRY (p, q) is the largest of `X[p, q] · A[p, k]` over the 2048 columns `k`. -/
theorem block_entry (X : FVec Ideal S512x64 .f32) (A : FVec Ideal S512x2048 .f32) (p : Fin 512) (q : Fin 64) :
    Value.E2 (F := Ideal) X A (ix2 p q)
      = (Finset.univ : Finset (Fin 2048)).fold max ⊥ (fun k => X (ix2 p q) * A (ix2 p k)) := by
  have i0 : Value.ix2_0 (ix2 p q) = ix2 p q :=
    funext fun a => Fin.ext (by match a with | ⟨0, _⟩ => rfl | ⟨1, _⟩ => rfl)
  have i1 : Value.ix2_1 (ix2 p q) = ix2 p q :=
    funext fun a => Fin.ext (by match a with | ⟨0, _⟩ => rfl | ⟨1, _⟩ => rfl)
  have i3 : Value.ix2_3 (ix2 p q) = ix2 p q :=
    funext fun a => Fin.ext (by match a with | ⟨0, _⟩ => rfl | ⟨1, _⟩ => rfl)
  have i2 : Value.ix2_2 (ix2 p q) = ix1 p :=
    funext fun a => Fin.ext (by match a with | ⟨0, _⟩ => rfl)
  have i4 : Value.ix2_4 (ix2 p q) = ix1 p :=
    funext fun a => Fin.ext (by match a with | ⟨0, _⟩ => rfl)
  refine Eq.trans ?_ (kernel_entry (X (ix2 p q)) (fun k => A (ix2 p k)))
  show Scalar.select (Ideal.cmp .oge (X (Value.ix2_0 (ix2 p q))) (Ideal.ofBits .f32 0x00000000#32))
      (X (Value.ix2_1 (ix2 p q)) * multiReduction (F := Ideal) .maximumf [1] S512 A 0xFF800000#32 reduces_S512x2048_S512 (.inl rfl) rfl (Value.ix2_2 (ix2 p q)))
      (X (Value.ix2_3 (ix2 p q)) * multiReduction (F := Ideal) .minimumf [1] S512 A 0x7F800000#32 reduces_S512x2048_S512 (.inl rfl) rfl (Value.ix2_4 (ix2 p q)))
    = _
  rw [i0, i1, i3, i2, i4, rowMax_apply A reduces_S512x2048_S512 (.inl rfl) rfl p,
    rowMin_apply A reduces_S512x2048_S512 (.inl rfl) rfl p]

/-- The same at any block index `y`: the largest of `X[y] · A[y₀, k]` over the columns `k` of `y`'s row. -/
theorem block_at (X : FVec Ideal S512x64 .f32) (A : FVec Ideal S512x2048 .f32) (y : S512x64.Idx) :
    Value.E2 (F := Ideal) X A y
      = (Finset.univ : Finset (Fin 2048)).fold max ⊥ (fun k => X y * A (ix2 (y 0) k)) := by
  obtain ⟨p, q, rfl⟩ : ∃ (p : Fin 512) (q : Fin 64), y = ix2 p q := ⟨y 0, y 1, eq_ix2 y⟩
  exact block_entry X A p q

/-- Both loads and the store go through the whole block: their offsets are zero. -/
theorem zero_offsets : (![0, 0] : Fin 2 → Nat) = fun _ => 0 := funext fun a => by fin_cases a <;> rfl

/-- WHAT THE BODY LEAVES IN THE OUTPUT BLOCK from a feature block `X` and an adjacency block `A`: at `y`, the largest of
    `X[y] · A[y₀, k]` over the columns `k`. (The one store covers the block; its payload is read by the generated value leg,
    the loads are the blocks themselves.) -/
theorem stored_block (X : Vec Ideal S512x64 .f32) (A : Vec Ideal S512x2048 .f32) (y : S512x64.Idx) :
    out0_2 X A y = (Finset.univ : Finset (Fin 2048)).fold max ⊥ (fun k => X y * A (ix2 (y 0) k)) := by
  unfold out0_2
  rw [Value.canon2_eq, View.ld_unit_zero (S := S512x64) zero_offsets, View.ld_unit_zero (S := S512x2048) zero_offsets]
  exact block_at X A y

end Cert.KernelIdeal.Block

end
-- ==== Proof.KernelArray.lean ====
/-
  FROM THE KERNEL'S BLOCKS TO ITS RESULT ARRAY.

  The grid has four points. At point `t` the feature window and the output window hold rows `512·t … 512·t + 511` of their
  arrays (all 64 columns) and the adjacency window holds the same rows of the adjacency array (all 2048 columns): the three
  index maps agree on the row axis and are zero on the column axis (`idx_facts`, decided over the four points). So the block
  entry `y` of the output at point `t` — the largest of `X[y] · A[y₀, k]` over `k`, by KernelBlock.lean — is, with the
  blocks read back in their arrays, the largest of `x[i] · adj[i₀, k]` at the array index `i` under `y`: point `t` writes back
  block `t` of `pooled x adj` (`flushed_eq`). Row `r` of the result lies in the block of point `r / 512`, so the four blocks
  cover the array (`cover`) and the array ends holding `pooled x adj` (`final`, `run`).
-/
import proofs.«124950_j47047071760693_2_alg».proof.Proof.Gen.KernelIdeal.Value
import proofs.«124950_j47047071760693_2_alg».proof.Proof.KernelBlock
import Idealize.ShloMosaic.Lib.Pipeline.Value
import Idealize.ShloMosaic.Lib.Tactic

noncomputable section

namespace Cert.KernelIdeal.Whole

open Cert.KernelIdeal Cert.KernelIdeal.Gen
open Idealize.ShloMosaic Idealize.ShloMosaic.TcCoe Idealize.SL.Sem Idealize.ShloMosaic.ValueIdx Cert.Pool
open Idealize.ShloMosaic.Pipeline (Dat)

variable (m : (ℓ : Loc nD τ sig) → Buf (Elt Ideal) ℓ) (ρ : Dev nD → PrngReg)

/-- The three index maps over the grid: the inputs' row blocks are the output's, every column block is block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Each of the four row blocks of the output is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

/-- WHAT POINT `t` WRITES BACK is block `t` of `pooled` of the two argument arrays. -/
theorem flushed_eq (c : Dev nD) (t : Fin cfg0.N) :
    (dats m 0 c).flushed 2 t
      = ((cfg0.win 2).blk t).view.read (Elt Ideal) (pooled (V m c main_arg0) (V m c main_arg1)) := by
  rw [Value.flushed2]
  obtain ⟨e0, e1, e2, e3, e4⟩ := idx_facts t
  funext j
  show out0_2 (iblk m c 0 t) (iblk m c 1 t) j
    = pooledAt (V m c main_arg0) (V m c main_arg1) ((((cfg0.win 2).blk t).view.emb j) 0) ((((cfg0.win 2).blk t).view.emb j) 1)
  refine (Block.stored_block (iblk m c 0 t) (iblk m c 1 t) j).trans ?_
  unfold pooledAt
  refine Finset.fold_congr (fun k _ => ?_)
  have h0 : iblk m c 0 t j
      = V m c main_arg0 (ix2 ((((cfg0.win 2).blk t).view.emb j) 0) ((((cfg0.win 2).blk t).view.emb j) 1)) := by
    show V m c main_arg0 (((cfg0.win 0).blk t).view.emb j) = _
    refine congrArg (V m c main_arg0) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 64 + 1 * (j 1).val = win0_2.index t (1 : Fin 2) * 64 + 1 * (j 1).val; omega
  have h1 : iblk m c 1 t (ix2 (j 0) k) = V m c main_arg1 (ix2 ((((cfg0.win 2).blk t).view.emb j) 0) k) := by
    show V m c main_arg1 (((cfg0.win 1).blk t).view.emb (ix2 (j 0) k)) = _
    refine congrArg (V m c main_arg1) ?_
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * k.val = k.val; omega
  rw [h0, h1]

/-- An index of the result array is in point `t`'s block iff each coordinate is in the block's range on its axis. -/
theorem mem_blk (t : Fin cfg0.N) (i : S2048x64.Idx) :
    i ∈ ((cfg0.win 2).blk t).view.set
      ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- Every index of the result array is in the block of the point that holds its row: row `r` is in row block `r / 512`. -/
theorem cover (i : S2048x64.Idx) : ∃ t : Fin cfg0.N, (cfg0.win 2).flush t = true ∧ i ∈ ((cfg0.win 2).blk t).view.set := by
  have hi0 : (i 0).val < 2048 := (i 0).isLt
  have hi1 : (i 1).val < 64 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 64 ≤ (i 1).val ∧ (i 1).val < win0_2.index t (1 : Fin 2) * 64 + 64; omega

/-- THE RESULT ARRAY after the run is `pooled` of the two argument arrays as launched. -/
theorem final (c : Dev nD) :
    (dats m 0 c).arrAt 2 cfg0.N
      = pooled (m ((c : Thread nD τ).loc main_arg0)) (m ((c : Thread nD τ).loc main_arg1)) :=
  (dats m 0 c).arrAt_eq_of_cover 2 (pooled (V m c main_arg0) (V m c main_arg1)) (fun t _ => flushed_eq m c t) cover

/-- The kernel's run, read: the result array at `pooled` of the arguments, the arguments unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefPooled.lean ====
/-
  THE REFERENCE COMPUTES `pooled`.

  The reference broadcasts the features to [2048, 1, 64] and then to [2048, 2048, 64], the adjacency to [2048, 2048, 1] and
  then to [2048, 2048, 64], multiplies entry by entry and takes the maximum over the middle axis from `-∞`. Read at (r, k, f)
  the product is `x[r, f] · adj[r, k]` — each broadcast reads its operand with the unit axis forgotten —, and the maximum
  over the middle axis at the result index (r, f) is the fold of `max` over the 2048 indices (r, k, f): the index (r, f) with
  `k` inserted on axis 1 (`lift_eq`). So the result at (r, f) is `pooledAt x adj r f` term by term.
-/
import proofs.«124950_j47047071760693_2_alg».proof.Proof.Gen.ReferenceIdeal.Read
import proofs.«124950_j47047071760693_2_alg».proof.Proof.Pooled
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Pool

/-- The reduced shape is the source with its middle axis removed. -/
theorem red : S2048x2048x64.Reduces [1] S2048x64 := by decide

/-- The result index (r, f) with the column `k` inserted on the reduced axis is (r, k, f). -/
theorem lift_eq (r : Fin 2048) (f : Fin 64) (k : Fin 2048) : red.lift (ix2 r f) k = ix3 r k f := by
  funext c
  apply Fin.ext
  match c with
  | ⟨0, _⟩ => rfl
  | ⟨1, _⟩ => rfl
  | ⟨2, _⟩ => rfl

/-- The product array at (r, k, f) is `x[r, f] · adj[r, k]`. -/
theorem prod_apply (x0 : (⟨S2048x64, .f32⟩ : BufTy).Contents (Elt Ideal)) (x1 : (⟨S2048x2048, .f32⟩ : BufTy).Contents (Elt Ideal))
    (r : Fin 2048) (f : Fin 64) (k : Fin 2048) :
    val_main_v4 (F := Ideal) x0 x1 (ix3 r k f) = x0 (ix2 r f) * x1 (ix2 r k) := by
  rw [val_main_v4_apply, val_main_v2_apply, val_main_v0_apply, val_main_v3_apply, val_main_v1_apply]
  have e0 : idx_main_v0 (idx_main_v2 (ix3 r k f)) = ix2 r f :=
    funext fun a => Fin.ext (by match a with | ⟨0, _⟩ => rfl | ⟨1, _⟩ => rfl)
  have e1 : idx_main_v1 (idx_main_v3 (ix3 r k f)) = ix2 r k :=
    funext fun a => Fin.ext (by match a with | ⟨0, _⟩ => rfl | ⟨1, _⟩ => rfl)
  rw [e0, e1]
  rfl

/-- A maximum over the middle axis of a [2048, 2048, 64] array, read at (r, f): the fold of `max`, from the initial value, over
    the 2048 entries (r, k, f), for any array and any initial value. -/
theorem reduceMax_apply (y : FVec Ideal S2048x2048x64 .f32) (init : FVec Ideal S_ .f32) (r : Fin 2048) (f : Fin 64) :
    Host.reduce (FloatOps.maximumf (F := Ideal) (φ := .f32)) y init reducesTo_S2048x2048x64_S2048x64_d1 h_S_ (ix2 r f)
      = (Finset.univ : Finset (Fin 2048)).fold max (init (Shape.Idx.first h_S_)) (fun k => y (ix3 r k f)) := by
  refine (Host.reduce_eq_fold_single (FloatOps.maximumf (F := Ideal) (φ := .f32)) y init
    reducesTo_S2048x2048x64_S2048x64_d1 red h_S_ (ix2 r f)).trans ?_
  exact Finset.fold_congr (fun k _ => congrArg y (lift_eq r f k))

/-- The reference's result array is `pooled` of its two arguments. -/
theorem ref_eq (x0 : (⟨S2048x64, .f32⟩ : BufTy).Contents (Elt Ideal)) (x1 : (⟨S2048x2048, .f32⟩ : BufTy).Contents (Elt Ideal)) :
    val_main_v5 (F := Ideal) x0 x1 = pooled x0 x1 := by
  funext i
  obtain ⟨r, f, rfl⟩ : ∃ (r : Fin 2048) (f : Fin 64), i = ix2 r f := ⟨i 0, i 1, eq_ix2 i⟩
  rw [pooled_ix2]
  unfold val_main_v5
  refine (reduceMax_apply (val_main_v4 (F := Ideal) x0 x1) (val_main_cst (F := Ideal)) r f).trans ?_
  rw [val_main_cst_apply]
  show (Finset.univ : Finset (Fin 2048)).fold max (Ideal.ofBits .f32 0xFF800000#32)
    (fun k => val_main_v4 (F := Ideal) x0 x1 (ix3 r k f)) = _
  rw [ofBits_negInf]
  unfold pooledAt
  exact Finset.fold_congr (fun k _ => prod_apply x0 x1 r f k)

end Cert.ReferenceIdeal.RefValue

end
-- ==== Proof.lean ====
/-
  Masked max-pooling over neighbours for a dense adjacency: for features `x` [2048, 64] and adjacency `adj` [2048, 2048],
      pooled[r, f] = max over k of  x[r, f] · adj[r, k].
  The reference forms all 2048 · 2048 · 64 products and reduces the middle axis with `max` from `-∞`. The kernel never
  forms them: in four blocks of 512 rows it takes each adjacency row's largest and smallest entry and stores
  `x · largest` where `x ≥ 0` and `x · smallest` elsewhere.

  On the extended reals the two agree for EVERY input, with no condition on `adj` (it need not be a 0/1 mask) and no use
  of finiteness: a nonnegative factor preserves order, so it passes through a maximum; a nonpositive factor reverses order,
  so it turns the minimum into the maximum of the products (Proof/PoolLaw.lean; the 2048 columns being a nonempty set is what
  makes the start values `-∞` and `+∞` harmless when `x = 0`).

  The modules: PoolLaw (the order law) → Pooled (the function `pooled`, and the kernel's entry formula brought to it) →
  KernelBlock (one block of the kernel, entry by entry) → KernelArray (the four blocks cover the result array; the kernel's
  run ends at `pooled x adj`), and beside them RefPooled (the reference's broadcasts, product and reduction read at an
  index: it computes `pooled x adj` too). Here the five claims are assembled: the three frames are the generated frame
  runs, the idealization rewrote nothing, and both value runs end at the same function of arguments that agree.
-/
import proofs.«124950_j47047071760693_2_alg».proof.Defs
import proofs.«124950_j47047071760693_2_alg».proof.Proof.Gen.Kernel
import proofs.«124950_j47047071760693_2_alg».proof.Proof.Gen.Kernel.Skeleton
import proofs.«124950_j47047071760693_2_alg».proof.Proof.Gen.Kernel.Launch
import proofs.«124950_j47047071760693_2_alg».proof.Proof.Gen.Kernel.Points
import proofs.«124950_j47047071760693_2_alg».proof.Proof.Gen.Kernel.Frame
import proofs.«124950_j47047071760693_2_alg».proof.Proof.Gen.KernelIdeal
import proofs.«124950_j47047071760693_2_alg».proof.Proof.Gen.KernelIdeal.Skeleton
import proofs.«124950_j47047071760693_2_alg».proof.Proof.Gen.KernelIdeal.Launch
import proofs.«124950_j47047071760693_2_alg».proof.Proof.Gen.KernelIdeal.Points
import proofs.«124950_j47047071760693_2_alg».proof.Proof.Gen.KernelIdeal.Frame
import proofs.«124950_j47047071760693_2_alg».proof.Proof.Gen.ReferenceIdeal
import proofs.«124950_j47047071760693_2_alg».proof.Proof.Gen.Pre_finite_inputs
import proofs.«124950_j47047071760693_2_alg».proof.Proof.Gen.KernelIdeal.Value
import proofs.«124950_j47047071760693_2_alg».proof.Proof.Gen.ReferenceIdeal.Run
import proofs.«124950_j47047071760693_2_alg».proof.Proof.Gen.ReferenceIdeal.Read
import proofs.«124950_j47047071760693_2_alg».proof.Proof.KernelArray
import proofs.«124950_j47047071760693_2_alg».proof.Proof.RefPooled
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its value run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From arguments that agree, the kernel's result array ends at `pooled x adj` (KernelArray) and the reference's at its
    reduction of the products, which is `pooled x adj` as well (RefPooled). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
